-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x128 : Shape := ⟨3, ![256, 256, 128]⟩
abbrev S256x512x128 : Shape := ⟨3, ![256, 512, 128]⟩
abbrev S_ : Shape := ⟨0, ![]⟩

class Facts : Prop where
  bcast_S_S256x256x128 : S_.BroadcastsInDim S256x256x128 (![] : Fin 0 → Fin S256x256x128.rank)
  reducesTo_S256x256x128_S_d0_1_2 : S256x256x128.ReducesTo [0, 1, 2] S_
  h_S_ : 0 < S_.numel
  bcast_S_S256x512x128 : S_.BroadcastsInDim S256x512x128 (![] : Fin 0 → Fin S256x512x128.rank)
  reducesTo_S256x512x128_S_d0_1_2 : S256x512x128.ReducesTo [0, 1, 2] S_

variable [Facts]

def fn {F : FTy → Type} [FloatOps F] (main_arg0 : FVec F S256x256x128 .f32) (main_arg1 : FVec F S256x512x128 .f32) (main_arg2 : FVec F S256x512x128 .f32) : IVec S_ 1 :=
  let main_v0 : FVec F S256x256x128 .f32 := Host.absf main_arg0
  let main_cst : FVec F S_ .f32 := constant S_ .f32 0x7F800000#32
  let main_v1 : FVec F S256x256x128 .f32 := broadcastInDim S256x256x128 ![] bcast_S_S256x256x128 main_cst
  let main_v2 : IVec S256x256x128 1 := cmpf .olt main_v0 main_v1
  let main_c : IVec S_ 1 := constantI S_ 1 1#1
  let main_v3 : IVec S_ 1 := (fun x v => Host.reduce IntOp.andi x v reducesTo_S256x256x128_S_d0_1_2 h_S_) main_v2 main_c
  let main_v4 : FVec F S256x512x128 .f32 := Host.absf main_arg1
  let main_cst_0 : FVec F S_ .f32 := constant S_ .f32 0x7F800000#32
  let main_v5 : FVec F S256x512x128 .f32 := broadcastInDim S256x512x128 ![] bcast_S_S256x512x128 main_cst_0
  let main_v6 : IVec S256x512x128 1 := cmpf .olt main_v4 main_v5
  let main_c_1 : IVec S_ 1 := constantI S_ 1 1#1
  let main_v7 : IVec S_ 1 := (fun x v => Host.reduce IntOp.andi x v reducesTo_S256x512x128_S_d0_1_2 h_S_) main_v6 main_c_1
  let main_v8 : IVec S_ 1 := andi main_v3 main_v7
  let main_v9 : FVec F S256x512x128 .f32 := Host.absf main_arg2
  let main_cst_2 : FVec F S_ .f32 := constant S_ .f32 0x7F800000#32
  let main_v10 : FVec F S256x512x128 .f32 := broadcastInDim S256x512x128 ![] bcast_S_S256x512x128 main_cst_2
  let main_v11 : IVec S256x512x128 1 := cmpf .olt main_v9 main_v10
  let main_c_3 : IVec S_ 1 := constantI S_ 1 1#1
  let main_v12 : IVec S_ 1 := (fun x v => Host.reduce IntOp.andi x v reducesTo_S256x512x128_S_d0_1_2 h_S_) main_v11 main_c_3
  let main_v13 : IVec S_ 1 := andi main_v8 main_v12
  main_v13
-- ==== Kernel.lean ====
abbrev S256x256x128 : Shape := ⟨3, ![256, 256, 128]⟩
abbrev S256x512x128 : Shape := ⟨3, ![256, 512, 128]⟩
abbrev S256x128 : Shape := ⟨2, ![256, 128]⟩
abbrev S8x256x128 : Shape := ⟨3, ![8, 256, 128]⟩
abbrev S8x512x128 : Shape := ⟨3, ![8, 512, 128]⟩
abbrev S8x128 : Shape := ⟨2, ![8, 128]⟩
abbrev S8x256x512 : Shape := ⟨3, ![8, 256, 512]⟩
abbrev S8x256 : Shape := ⟨2, ![8, 256]⟩
abbrev S8 : Shape := ⟨1, ![8]⟩
abbrev S8x1 : Shape := ⟨2, ![8, 1]⟩
abbrev S1 : Shape := ⟨1, ![1]⟩
abbrev S1x1 : Shape := ⟨2, ![1, 1]⟩
abbrev S32x8x128 : Shape := ⟨3, ![32, 8, 128]⟩
abbrev S32x1x1 : Shape := ⟨3, ![32, 1, 1]⟩
abbrev S32 : Shape := ⟨1, ![32]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S256x256x128, .f32⟩
  | .hbm, ⟨1, _⟩ => ⟨S256x512x128, .f32⟩
  | .hbm, ⟨2, _⟩ => ⟨S256x512x128, .f32⟩
  | .hbm, ⟨3, _⟩ => ⟨S256x128, .f32⟩
  | .hbm, ⟨4, _⟩ => ⟨S256x128, .f32⟩
  | .hbm, ⟨5, _⟩ => ⟨S32x8x128, .f32⟩
  | .hbm, ⟨6, _⟩ => ⟨S32x1x1, .f32⟩
  | .hbm, ⟨7, _⟩ => ⟨S32, .f32⟩
  | .hbm, ⟨8, _⟩ => ⟨S_, .f32⟩
  | .hbm, ⟨9, _⟩ => ⟨S_, .f32⟩
  | .hbm, ⟨10, _⟩ => ⟨S32x8x128, .f32⟩
  | .hbm, ⟨11, _⟩ => ⟨S32x1x1, .f32⟩
  | .hbm, ⟨12, _⟩ => ⟨S32, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S8x256x128, .f32⟩
  | .local _ .vmem, ⟨1, _⟩ => ⟨S8x256x128, .f32⟩
  | .local _ .vmem, ⟨2, _⟩ => ⟨S8x512x128, .f32⟩
  | .local _ .vmem, ⟨3, _⟩ => ⟨S8x512x128, .f32⟩
  | .local _ .vmem, ⟨4, _⟩ => ⟨S8x512x128, .f32⟩
  | .local _ .vmem, ⟨5, _⟩ => ⟨S8x512x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | _, _ => ⟨S256x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_call0_cst : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S8x256x128_S8x256x128_0_0_0 : ∀ a, (![0, 0, 0] : Fin 3 → Nat) a + S8x256x128.size a ≤ S8x256x128.size a
  h_S8x256x128 : 0 < S8x256x128.numel
  bitsLt_bf16_f32 : FTy.bits .bf16 < FTy.bits .f32
  inb_S8x512x128_S8x512x128_0_0_0 : ∀ a, (![0, 0, 0] : Fin 3 → Nat) a + S8x512x128.size a ≤ S8x512x128.size a
  h_S8x512x128 : 0 < S8x512x128.numel
  reduces_S8x256x512_S8x256 : S8x256x512.Reduces [2] S8x256
  reduces_S8x256_S8 : S8x256.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  shapeCasts_S256x128_S32x8x128 : S256x128.ShapeCasts S32x8x128
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  dot_S8x256x128_S8x512x128_S8x256x512_2_2_1_1_0_0_wf : DotDims.WF S8x256x128 S8x512x128 S8x256x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S256x256x128.size a
  hwx0_0 : ∀ i : grid0.Coords, EltTy.bits .f32 = 32 ∨ (Rect.block (s := S256x256x128) S8x256x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x128.size a ≤ S256x512x128.size a
  hwx0_1 : ∀ i : grid0.Coords, EltTy.bits .f32 = 32 ∨ (Rect.block (s := S256x512x128) S8x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x128.size a ≤ S256x512x128.size a
  hwx0_2 : ∀ i : grid0.Coords, EltTy.bits .f32 = 32 ∨ (Rect.block (s := S256x512x128) S8x512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S256x128.size a
  hwx0_3 : ∀ i : grid0.Coords, EltTy.bits .f32 = 32 ∨ (Rect.block (s := S256x128) S8x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128.size a ≤ S256x128.size a
  hwx0_4 : ∀ i : grid0.Coords, EltTy.bits .f32 = 32 ∨ (Rect.block (s := S256x128) S8x128.size (cc0_transform_4 i) (hinb0_4 i)).WholeWords (EltTy.packing .f32)

variable [Facts₀]

def dot_S8x256x128_S8x512x128_S8x256x512_2_2_1_1_0_0 : DotDims S8x256x128 S8x512x128 S8x256x512 where
  lhsContracting := [2]
  rhsContracting := [2]
  lhsNonContracting := [1]
  rhsNonContracting := [1]
  lhsBatch := [0]
  rhsBatch := [0]
  wf := dot_S8x256x128_S8x512x128_S8x256x512_2_2_1_1_0_0_wf

abbrev win0_0 : Pipeline.Window sig grid0 :=
  Pipeline.Window.ofSpec (Memref.whole main_arg0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x256x128 : Shape := ⟨3, ![256, 256, 128]⟩
abbrev S256x512x128 : Shape := ⟨3, ![256, 512, 128]⟩
abbrev S256x256x512 : Shape := ⟨3, ![256, 256, 512]⟩
abbrev S_ : Shape := ⟨0, ![]⟩
abbrev S256x256 : Shape := ⟨2, ![256, 256]⟩

abbrev nBuf : Space → Nat
  | .hbm => 18
  | .vmem => 0
  | .smem => 0
  | _ => 0

abbrev bufTy : (tb : Table) → Fin (tcTables nBuf tb) → BufTy
  | .hbm, ⟨0, _⟩ => ⟨S256x256x128, .f32⟩
  | .hbm, ⟨1, _⟩ => ⟨S256x512x128, .f32⟩
  | .hbm, ⟨2, _⟩ => ⟨S256x512x128, .f32⟩
  | .hbm, ⟨3, _⟩ => ⟨S256x256x512, .f32⟩
  | .hbm, ⟨4, _⟩ => ⟨S_, .f32⟩
  | .hbm, ⟨5, _⟩ => ⟨S256x256, .f32⟩
  | .hbm, ⟨6, _⟩ => ⟨S_, .f32⟩
  | .hbm, ⟨7, _⟩ => ⟨S_, .f32⟩
  | .hbm, ⟨8, _⟩ => ⟨S256x256x512, .f32⟩
  | .hbm, ⟨9, _⟩ => ⟨S_, .f32⟩
  | .hbm, ⟨10, _⟩ => ⟨S256x256, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S256x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_v8 : Ref sig .tc := ⟨.hbm, 17, rfl⟩

abbrev nD : Nat := 1
abbrev τ : Topo := Topo.v7x

variable {F : FTy → Type} [FloatOps F]

class Facts₀ : Prop where
  reducesTo_S256x256x512_S256x256_d2 : S256x256x512.ReducesTo [2] S256x256
  h_S_ : 0 < S_.numel
  reducesTo_S256x256_S_d0_1 : S256x256.ReducesTo [0, 1] S_
  dot_S256x256x128_S256x512x128_S256x256x512_2_2_1_1_0_0_wf : DotDims.WF S256x256x128 S256x512x128 S256x256x512 [2] [2] [1] [1] [0] [0]

variable [Facts₀]

def dot_S256x256x128_S256x512x128_S256x256x512_2_2_1_1_0_0 : DotDims S256x256x128 S256x512x128 S256x256x512 where
  lhsContracting := [2]
  rhsContracting := [2]
  lhsNonContracting := [1]
  rhsNonContracting := [1]
  lhsBatch := [0]
  rhsBatch := [0]
  wf := dot_S256x256x128_S256x512x128_S256x256x512_2_2_1_1_0_0_wf

class Facts : Prop extends Facts₀ where

variable [Facts]
-- ==== Proof.Score.lean ====
/-
  The late-interaction score and the triplet margin loss, as functions of the argument arrays on the extended reals.

  For a batch of queries Q : [B, M, D] and a batch of documents P : [B, N, D]:
  * `sim Q P b q k`   — the inner product of query token (b, q) and document token (b, k), the sum over the D features;
  * `best Q P b q`    — the largest similarity of query token (b, q) over the N document tokens of batch entry b
                         (the fold of max from minus infinity);
  * `rowScore Q P b`  — the sum of `best` over the M query tokens of batch entry b;
  * `score Q P`       — the sum of `rowScore` over the batch.
  The loss is `hinge pos neg = max (margin + neg - pos) 0` on rank-0 arrays, the margin being the f32 word 0x3E4CCCCD.
-/
import Idealize.ShloMosaic.Lib.ValueIdx
import Idealize.ShloMosaic.PureOps.Ideal

noncomputable section

open scoped BigOperators

namespace Cert.Colbert

open Idealize.ShloMosaic Idealize.ShloMosaic.ValueIdx

/-- Minus infinity, as the f32 word both programs start their maxima from. -/
def negInf : EReal := Ideal.ofBits .f32 0xFF800000#32

/-- The inner product of query token (b, q) and document token (b, k). -/
def sim {B M N D : Nat} (Q : (⟨3, ![B, M, D]⟩ : Shape).Idx → EReal) (P : (⟨3, ![B, N, D]⟩ : Shape).Idx → EReal)
    (b : Fin B) (q : Fin M) (k : Fin N) : EReal :=
  ∑ d : Fin D, Q (ix3 b q d) * P (ix3 b k d)

/-- The largest similarity of query token (b, q) over the document tokens of batch entry b. -/
def best {B M N D : Nat} (Q : (⟨3, ![B, M, D]⟩ : Shape).Idx → EReal) (P : (⟨3, ![B, N, D]⟩ : Shape).Idx → EReal)
    (b : Fin B) (q : Fin M) : EReal :=
  (Finset.univ : Finset (Fin N)).fold max negInf (fun k => sim Q P b q k)

/-- The score of batch entry b: the sum over its query tokens of their best similarities. -/
def rowScore {B M N D : Nat} (Q : (⟨3, ![B, M, D]⟩ : Shape).Idx → EReal) (P : (⟨3, ![B, N, D]⟩ : Shape).Idx → EReal)
    (b : Fin B) : EReal :=
  ∑ q : Fin M, best Q P b q

/-- The score of the whole batch. -/
def score {B M N D : Nat} (Q : (⟨3, ![B, M, D]⟩ : Shape).Idx → EReal) (P : (⟨3, ![B, N, D]⟩ : Shape).Idx → EReal) : EReal :=
  ∑ b : Fin B, rowScore Q P b

/-- The rank-0 shape. -/
abbrev S0 : Shape := ⟨0, ![]⟩

/-- The triplet margin loss of a positive and a negative score: max (margin + neg - pos) 0. -/
def hinge (pos neg : FVec Ideal S0 .f32) : FVec Ideal S0 .f32 :=
  maximumf (subf (addf (constant (F := Ideal) S0 .f32 0x3E4CCCCD#32) neg) pos) (constant (F := Ideal) S0 .f32 0x00000000#32)

/-- A rank-0 array holding zero plus a score: what a sum from the zero word over the partial scores leaves. -/
def scoreArr {B M N D : Nat} (Q : (⟨3, ![B, M, D]⟩ : Shape).Idx → EReal) (P : (⟨3, ![B, N, D]⟩ : Shape).Idx → EReal) :
    FVec Ideal S0 .f32 :=
  fun _ => Ideal.ofBits .f32 0x00000000#32 + score Q P

end Cert.Colbert

end
-- ==== Proof.LibLastAxis.lean ====
/-
  Reductions along the LAST axis, on the extended reals, for any sizes and ranks 2, 3 and 4.

  * Over a result index, the source index with coordinate k on the reduced (last) axis appends k.
  * The host's sum from an initial value is that value plus the finite sum along the axis; a kernel's lane sum from the
    zero word is the finite sum.
  * The host's maximum and a kernel's lane maximum are the fold of max, from the initial value, along the axis; from
    minus infinity, one more `max` with minus infinity changes nothing.
-/
import Idealize.ShloMosaic.Lib.ValueIdx
import Idealize.ShloMosaic.Lib.Pipeline.Value
import Idealize.ShloMosaic.PureOps.Ideal.Laws

noncomputable section

open scoped BigOperators

namespace Cert.Lib.LastAxis

open Idealize.ShloMosaic Idealize.ShloMosaic.ValueIdx

/-! ## The source index over a result index -/

theorem lift_last2 {a b : ℕ} (h : (⟨2, ![a, b]⟩ : Shape).Reduces [(1 : Fin 2)] ⟨1, ![a]⟩) (p : Fin a)
    (k : Fin ((⟨2, ![a, b]⟩ : Shape).size 1)) : h.lift (ix1 p) k = ix2 p (k : Fin b) := by
  funext c; apply Fin.ext; rw [h.lift_val]
  match c with
  | ⟨0, _⟩ => rfl
  | ⟨1, _⟩ => rfl

theorem lift_last3 {a b c : ℕ} (h : (⟨3, ![a, b, c]⟩ : Shape).Reduces [(2 : Fin 3)] ⟨2, ![a, b]⟩) (p : Fin a) (q : Fin b)
    (k : Fin ((⟨3, ![a, b, c]⟩ : Shape).size 2)) : h.lift (ix2 p q) k = ix3 p q (k : Fin c) := by
  funext x; apply Fin.ext; rw [h.lift_val]
  match x with
  | ⟨0, _⟩ => rfl
  | ⟨1, _⟩ => rfl
  | ⟨2, _⟩ => rfl

theorem lift_last4 {a b c d : ℕ} (h : (⟨4, ![a, b, c, d]⟩ : Shape).Reduces [(3 : Fin 4)] ⟨3, ![a, b, c]⟩) (p : Fin a) (q : Fin b)
    (r : Fin c) (k : Fin ((⟨4, ![a, b, c, d]⟩ : Shape).size 3)) : h.lift (ix3 p q r) k = ix4 p q r (k : Fin d) := by
  funext x; apply Fin.ext; rw [h.lift_val]
  match x with
  | ⟨0, _⟩ => rfl
  | ⟨1, _⟩ => rfl
  | ⟨2, _⟩ => rfl
  | ⟨3, _⟩ => rfl

/-! ## Sums -/

/-- The host's sum of a rank-3 array along its last axis, at (p, q). -/
theorem hostSum_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel) (p : Fin a) (q : Fin b) :
    Host.reduceAdd x v h' hu (ix2 p q) = v ix0 + ∑ k : Fin c, x (ix3 p q k) := by
  show Ideal.hostReduceAdd h' x (v (Shape.Idx.first hu)) (ix2 p q) = _
  rw [Ideal.hostReduceAdd_single h' h, eq_ix0 (Shape.Idx.first hu)]
  exact congrArg (v ix0 + ·) (Finset.sum_congr rfl fun k _ => congrArg x (lift_last3 h p q k))

/-- The host's sum of a rank-4 array along its last axis, at (p, q, r). -/
theorem hostSum_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduceAdd x v h' hu (ix3 p q r) = v ix0 + ∑ k : Fin d, x (ix4 p q r k) := by
  show Ideal.hostReduceAdd h' x (v (Shape.Idx.first hu)) (ix3 p q r) = _
  rw [Ideal.hostReduceAdd_single h' h, eq_ix0 (Shape.Idx.first hu)]
  exact congrArg (v ix0 + ·) (Finset.sum_congr rfl fun k _ => congrArg x (lift_last4 h p q r k))

/-- A kernel's lane sum of a matrix along its last axis from the neutral word, at row p. -/
theorem laneSum_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (p : Fin a) :
    multiReduction .add [(1 : Fin 2)] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-! ## Maxima -/

/-- Minus infinity is neutral for `max` on the extended reals. -/
theorem max_bot_left (y : EReal) : max (⊥ : EReal) y = y := max_eq_right bot_le

/-- The host's maximum of a rank-4 array along its last axis, at (p, q, r): the fold of max from the initial value. -/
theorem hostMax_last4 {a b c d : ℕ} {φ : FTy} (x : FVec Ideal ⟨4, ![a, b, c, d]⟩ φ) (v : (⟨0, ![]⟩ : Shape).Idx → Ideal φ)
    (h' : (⟨4, ![a, b, c, d]⟩ : Shape).ReducesTo [(3 : Fin 4)] ⟨3, ![a, b, c]⟩)
    (h : (⟨4, ![a, b, c, d]⟩ : Shape).Reduces [(3 : Fin 4)] ⟨3, ![a, b, c]⟩) (hu : 0 < (⟨0, ![]⟩ : Shape).numel)
    (p : Fin a) (q : Fin b) (r : Fin c) :
    Host.reduce (FloatOps.maximumf (F := Ideal) (φ := φ)) x v h' hu (ix3 p q r)
      = (Finset.univ : Finset (Fin d)).fold max (v ix0) (fun k => x (ix4 p q r k)) := by
  rw [Host.reduce_eq_fold_single (FloatOps.maximumf (F := Ideal) (φ := φ)) x v h' h hu, eq_ix0 (Shape.Idx.first hu)]
  exact congrArg (fun f => Finset.fold max (v ix0) f (Finset.univ : Finset (Fin d))) (funext fun k => congrArg x (lift_last4 h p q r k))

/-- A kernel's lane maximum of a matrix along its last axis, at row p: the fold of max from the accumulator word's value. -/
theorem laneMax_last2 {a b : ℕ} {φ : FTy} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (p : Fin a) :
    multiReduction .maximumf [(1 : Fin 2)] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (fun f => Finset.fold max (FloatOps.ofBits φ acc) f (Finset.univ : Finset (Fin b))) (funext fun k => congrArg src (lift_last2 h p k)))

end Cert.Lib.LastAxis

end
-- ==== Proof.LibLastAxis3.lean ====
/-
  Maxima along the LAST axis of a rank-3 array, on the extended reals, for any sizes: the host's maximum from an
  initial value, and a kernel's lane maximum from an accumulator word, are at (p, q) the fold of max from that
  value over the entries (p, q, k). The rank-3 companions of the rank-2 and rank-4 forms for the same axis.
-/
import proofs.«163688_j52664888983644_2_alg».proof.Proof.LibLastAxis

noncomputable section

namespace Cert.Lib.LastAxis3

open Idealize.ShloMosaic Idealize.ShloMosaic.ValueIdx

/-- The host's maximum of a rank-3 array along its last axis, at (p, q): the fold of max from the initial value. -/
theorem hostMax_last3 {a b c : ℕ} {φ : FTy} (x : FVec Ideal ⟨3, ![a, b, c]⟩ φ) (v : (⟨0, ![]⟩ : Shape).Idx → Ideal φ)
    (h' : (⟨3, ![a, b, c]⟩ : Shape).ReducesTo [(2 : Fin 3)] ⟨2, ![a, b]⟩)
    (h : (⟨3, ![a, b, c]⟩ : Shape).Reduces [(2 : Fin 3)] ⟨2, ![a, b]⟩) (hu : 0 < (⟨0, ![]⟩ : Shape).numel)
    (p : Fin a) (q : Fin b) :
    Host.reduce (FloatOps.maximumf (F := Ideal) (φ := φ)) x v h' hu (ix2 p q)
      = (Finset.univ : Finset (Fin c)).fold max (v ix0) (fun k => x (ix3 p q k)) := by
  rw [Host.reduce_eq_fold_single (FloatOps.maximumf (F := Ideal) (φ := φ)) x v h' h hu, eq_ix0 (Shape.Idx.first hu)]
  exact congrArg (fun f => Finset.fold max (v ix0) f (Finset.univ : Finset (Fin c)))
    (funext fun k => congrArg x (Cert.Lib.LastAxis.lift_last3 h p q k))

/-- A lane maximum of a rank-3 block along its last axis, at (p, q): the fold of max from the accumulator word's value. -/
theorem laneMax_last3 {a b c : ℕ} {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.maximumf.neutral φ hφ) (p : Fin a) (q : Fin b) :
    multiReduction .maximumf [(2 : Fin 3)] ⟨2, ![a, b]⟩ src acc h hφ hacc (ix2 p q)
      = (Finset.univ : Finset (Fin c)).fold max (FloatOps.ofBits φ acc) (fun k => src (ix3 p q k)) :=
  (Ideal.multiReduction_maximumf_single src acc h hφ hacc (ix2 p q)).trans
    (congrArg (fun f => Finset.fold max (FloatOps.ofBits φ acc) f (Finset.univ : Finset (Fin c)))
      (funext fun k => congrArg src (Cert.Lib.LastAxis.lift_last3 h p q k)))

end Cert.Lib.LastAxis3

end
-- ==== Proof.LibFirstAxis.lean ====
/-
  Reductions of a matrix along its FIRST axis, on the extended reals, for any sizes.

  Over a result index `q` (a column), the source index with coordinate `k` on the reduced axis is `(k, q)`; so a
  kernel's sum of an `[a, b]` matrix along axis 0 from the zero word is, at column `q`, the finite sum over the rows
  `k` of the entries `(k, q)`.  With `b = 1` this is the sum of a column vector `[a, 1]` into `[1]`.
-/
import Idealize.ShloMosaic.Lib.ValueIdx
import Idealize.ShloMosaic.PureOps.Ideal.Laws

noncomputable section

open scoped BigOperators

namespace Cert.Lib.FirstAxis

open Idealize.ShloMosaic Idealize.ShloMosaic.ValueIdx

/-- The source index over column `q` with row coordinate `k` is `(k, q)`. -/
theorem lift_first2 {a b : ℕ} (h : (⟨2, ![a, b]⟩ : Shape).Reduces [(0 : Fin 2)] ⟨1, ![b]⟩) (q : Fin b)
    (k : Fin ((⟨2, ![a, b]⟩ : Shape).size 0)) : h.lift (ix1 q) k = ix2 (k : Fin a) q := by
  funext c; apply Fin.ext; rw [h.lift_val]
  match c with
  | ⟨0, _⟩ => rfl
  | ⟨1, _⟩ => rfl

/-- A kernel's sum of a matrix along its first axis from the neutral word, at column `q`: the sum over the rows. -/
theorem laneSum_first2 {a b : ℕ} {φ : FTy} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ)
    (q : Fin b) :
    multiReduction .add [(0 : Fin 2)] ⟨1, ![b]⟩ src acc h hφ hacc (ix1 q) = ∑ k : Fin a, src (ix2 k q) :=
  (Ideal.multiReduction_add_single src acc h hφ hacc (ix1 q)).trans
    (Finset.sum_congr rfl fun k _ => congrArg src (lift_first2 h q k))

end Cert.Lib.FirstAxis

end
-- ==== Proof.LibBatchedScores3.lean ====
/-
  The contraction sum of a batched matrix product whose right operand is contracted on its LAST axis, one batch
  axis in front — einsum `bqd,bkd→bqk`, shapes [B,M,D] × [B,N,D] → [B,M,N] —, for any sizes, on the extended reals:
  at output index (b, p, q) it is the sum over d of L (b, p, d) * R (b, q, d).  With it a matmul into the zero
  accumulator and a host dot_general of these dimension numbers, read at (b, p, q).

  The dimension numbers are taken as a record with six list hypotheses (closed by `rfl` on a printed record).
-/
import Idealize.ShloMosaic.PureOps.Ideal.Laws
import Idealize.ShloMosaic.Lib.ValueIdx

noncomputable section

open scoped BigOperators

namespace Cert.Lib.BatchedScores3

open Idealize.ShloMosaic Idealize.ShloMosaic.ValueIdx

/-- The operand indices at output index (b, p, q) and contraction coordinate d are (b, p, d) and (b, q, d). -/
theorem scores3_idx {B M N D : Nat} (dd : DotDims ⟨3, ![B, M, D]⟩ ⟨3, ![B, N, D]⟩ ⟨3, ![B, M, N]⟩)
    (hlc : dd.lhsContracting = [2]) (hrc : dd.rhsContracting = [2]) (hln : dd.lhsNonContracting = [1])
    (hrn : dd.rhsNonContracting = [1]) (hlb : dd.lhsBatch = [0]) (hrb : dd.rhsBatch = [0]) :
    ∃ (hr : dd.contr.rank = 1) (hs : dd.contr.size ⟨0, by omega⟩ = D),
      ∀ (b : Fin B) (p : Fin M) (q : Fin N) (d : Fin D),
      dd.lhsIdx (ix3 b p q) ((contrEquiv1 dd D hr hs).symm d) = ix3 b p d ∧
      dd.rhsIdx (ix3 b p q) ((contrEquiv1 dd D hr hs).symm d) = ix3 b q d := by
  obtain ⟨lc, rc, ln, rn, lb, rb, wf⟩ := dd
  simp only at hlc hrc hln hrn hlb hrb
  subst hlc hrc hln hrn hlb hrb
  refine ⟨rfl, rfl, fun b p q d => ⟨?_, ?_⟩⟩
  · funext a
    match a with
    | ⟨0, _⟩ => exact Fin.ext rfl
    | ⟨1, _⟩ => exact Fin.ext rfl
    | ⟨2, _⟩ => exact Fin.ext rfl
  · funext a
    match a with
    | ⟨0, _⟩ => exact Fin.ext rfl
    | ⟨1, _⟩ => exact Fin.ext rfl
    | ⟨2, _⟩ => exact Fin.ext rfl

/-- The contraction sum at (b, p, q): the sum over d of L (b, p, d) * R (b, q, d). -/
theorem scores3_sum {B M N D : Nat} (dd : DotDims ⟨3, ![B, M, D]⟩ ⟨3, ![B, N, D]⟩ ⟨3, ![B, M, N]⟩)
    (hlc : dd.lhsContracting = [2]) (hrc : dd.rhsContracting = [2]) (hln : dd.lhsNonContracting = [1])
    (hrn : dd.rhsNonContracting = [1]) (hlb : dd.lhsBatch = [0]) (hrb : dd.rhsBatch = [0])
    (L : (⟨3, ![B, M, D]⟩ : Shape).Idx → EReal) (R : (⟨3, ![B, N, D]⟩ : Shape).Idx → EReal)
    (b : Fin B) (p : Fin M) (q : Fin N) :
    ∑ κ : dd.contr.Idx, L (dd.lhsIdx (ix3 b p q) κ) * R (dd.rhsIdx (ix3 b p q) κ)
      = ∑ d : Fin D, L (ix3 b p d) * R (ix3 b q d) := by
  obtain ⟨hr, hs, h⟩ := scores3_idx dd hlc hrc hln hrn hlb hrb
  rw [← Equiv.sum_comp (contrEquiv1 dd D hr hs).symm]
  exact Finset.sum_congr rfl fun d _ => by rw [(h b p q d).1, (h b p q d).2]

/-- A matmul of these dimension numbers into the zero accumulator, read at (b, p, q). -/
theorem matmul_scores3 {B M N D : Nat} {φ₁ φ₂ : FTy} (dd : DotDims ⟨3, ![B, M, D]⟩ ⟨3, ![B, N, D]⟩ ⟨3, ![B, M, N]⟩)
    (hlc : dd.lhsContracting = [2]) (hrc : dd.rhsContracting = [2]) (hln : dd.lhsNonContracting = [1])
    (hrn : dd.rhsNonContracting = [1]) (hlb : dd.lhsBatch = [0]) (hrb : dd.rhsBatch = [0])
    (prec : Option ContractPrecision) (lhs : FVec Ideal ⟨3, ![B, M, D]⟩ φ₁) (rhs : FVec Ideal ⟨3, ![B, N, D]⟩ φ₂)
    (b : Fin B) (p : Fin M) (q : Fin N) :
    matmul dd prec lhs rhs (constant ⟨3, ![B, M, N]⟩ .f32 0x00000000#32) (ix3 b p q)
      = ∑ d : Fin D, lhs (ix3 b p d) * rhs (ix3 b q d) :=
  (Ideal.matmul_constant_zero_apply dd prec lhs rhs (ix3 b p q)).trans
    (scores3_sum dd hlc hrc hln hrn hlb hrb lhs rhs b p q)

/-- A host dot_general of these dimension numbers, read at (b, p, q). -/
theorem hostDot_scores3 {B M N D : Nat} {φ₁ φ₂ : FTy} (dd : DotDims ⟨3, ![B, M, D]⟩ ⟨3, ![B, N, D]⟩ ⟨3, ![B, M, N]⟩)
    (hlc : dd.lhsContracting = [2]) (hrc : dd.rhsContracting = [2]) (hln : dd.lhsNonContracting = [1])
    (hrn : dd.rhsNonContracting = [1]) (hlb : dd.lhsBatch = [0]) (hrb : dd.rhsBatch = [0])
    (prec : Option ContractPrecision) (lhs : FVec Ideal ⟨3, ![B, M, D]⟩ φ₁) (rhs : FVec Ideal ⟨3, ![B, N, D]⟩ φ₂)
    (b : Fin B) (p : Fin M) (q : Fin N) :
    Host.dotGeneral dd prec lhs rhs (ix3 b p q) = ∑ d : Fin D, lhs (ix3 b p d) * rhs (ix3 b q d) :=
  (Ideal.dotGeneral_apply dd prec .single lhs rhs (ix3 b p q)).trans
    (scores3_sum dd hlc hrc hln hrn hlb hrb lhs rhs b p q)

end Cert.Lib.BatchedScores3

end
-- ==== Proof.BlockScore.lean ====
/-
  What one grid step of the kernel stores, read at an index.

  The body takes a block of 8 batch entries of the queries, x0 : [8, 256, 128], and of one document array,
  x1 : [8, 512, 128]; it multiplies them batch entry by batch entry (contracting the 128 features), takes the row maxima
  over the 512 document tokens, sums over the 256 query tokens, then over the 8 batch entries, and spreads the one number
  it is left with over an [8, 128] tile.  So every entry of the tile is the sum over the block's 8 batch entries of their
  scores.  The changes of float format on the way into the product are the identity on the extended reals.
-/
import proofs.«163688_j52664888983644_2_alg».proof.Proof.Gen.KernelIdeal.Skeleton
import proofs.«163688_j52664888983644_2_alg».proof.Proof.Score
import proofs.«163688_j52664888983644_2_alg».proof.Proof.LibLastAxis
import proofs.«163688_j52664888983644_2_alg».proof.Proof.LibLastAxis3
import proofs.«163688_j52664888983644_2_alg».proof.Proof.LibFirstAxis
import proofs.«163688_j52664888983644_2_alg».proof.Proof.LibBatchedScores3
import Idealize.ShloMosaic.Lib.Pipeline.Value

noncomputable section

open scoped BigOperators

namespace Cert.Colbert

open Idealize.ShloMosaic Idealize.ShloMosaic.ValueIdx Cert.KernelIdeal Cert.KernelIdeal.Gen

/-- A [1, 1] array spread over an [8, 128] tile reads its one entry everywhere. -/
theorem spread_apply {α : Type} (v : S1x1.Idx → α) (h : S1x1.Broadcasts S8x128) (r : Fin 8) (l : Fin 128) :
    broadcastTo S8x128 v h (ix2 r l) = v (ix2 0 0) :=
  broadcastTo_apply v h (ix2 r l) (ix2 0 0) fun a => by
    match a with
    | ⟨0, _⟩ => rfl
    | ⟨1, _⟩ => rfl

/-- A one-entry vector viewed as a [1, 1] array. -/
theorem one_as_matrix {α : Type} (v : S1.Idx → α) (h : S1.ShapeCasts S1x1) :
    shapeCast S1x1 v h (ix2 0 0) = v (ix1 0) :=
  shapeCast_apply v h (ix2 0 0) (ix1 0) (by rw [Shape.rowMajor_val_one, Shape.rowMajor_val_two]; rfl)

/-- A vector of 8 entries viewed as an [8, 1] column. -/
theorem column_apply {α : Type} (v : S8.Idx → α) (h : S8.ShapeCasts S8x1) (b : Fin 8) :
    shapeCast S8x1 v h (ix2 b 0) = v (ix1 b) :=
  shapeCast_apply v h (ix2 b 0) (ix1 b) (by
    rw [Shape.rowMajor_val_one, Shape.rowMajor_val_two]
    show b.val = b.val * 1 + 0
    omega)

/-- Every entry of the tile a grid step stores is the sum over the block's 8 batch entries of their scores. -/
theorem tile_apply (x0 : Vec Ideal S8x256x128 .f32) (x1 : Vec Ideal S8x512x128 .f32) (r : Fin 8) (l : Fin 128) :
    k0_pay2 (F := Ideal) x0 x1 (ix2 r l) = ∑ b : Fin 8, rowScore x0 x1 b := by
  unfold k0_pay2 k0_pay1 rowScore best sim
  refine (spread_apply _ _ r l).trans ?_
  refine (congrFun (shapeCast_self _ _) _).trans ?_
  refine (one_as_matrix _ _).trans ?_
  refine (Cert.Lib.FirstAxis.laneSum_first2 _ _ _ _ _ 0).trans ?_
  refine Finset.sum_congr rfl fun b _ => ?_
  refine (column_apply _ _ b).trans ?_
  refine (Cert.Lib.LastAxis.laneSum_last2 _ _ _ _ _ b).trans ?_
  refine Finset.sum_congr rfl fun q _ => ?_
  refine (Cert.Lib.LastAxis3.laneMax_last3 _ _ _ _ _ b q).trans ?_
  exact congrArg (fun f => Finset.fold max negInf f (Finset.univ : Finset (Fin 512)))
    (funext fun k => Cert.Lib.BatchedScores3.matmul_scores3 _ rfl rfl rfl rfl rfl rfl _ _ _ b q k)

/-- The second tile is the same function of the queries and the other document array. -/
theorem tile'_apply (x0 : Vec Ideal S8x256x128 .f32) (x2 : Vec Ideal S8x512x128 .f32) (r : Fin 8) (l : Fin 128) :
    k0_pay3 (F := Ideal) x0 x2 (ix2 r l) = ∑ b : Fin 8, rowScore x0 x2 b :=
  tile_apply x0 x2 r l

end Cert.Colbert

end
-- ==== Proof.PartialSums.lean ====
/-
  From the tiles the grid steps store to the two arrays the kernel leaves.

  Grid step t (of 32) works on batch entries 8t … 8t+7: its query block is rows 8t … 8t+7 of the queries, its document
  blocks the same rows of the two document arrays, and it writes rows 8t … 8t+7 of each [256, 128] output.  Every entry
  of those rows is the block's partial score, the sum of the scores of its 8 batch entries.  The 32 row blocks tile the
  output, so after the run row r of each output holds the partial score of block r / 8 in every column.
-/
import proofs.«163688_j52664888983644_2_alg».proof.Proof.Gen.KernelIdeal.Frame
import proofs.«163688_j52664888983644_2_alg».proof.Proof.BlockScore
import Idealize.ShloMosaic.Lib.Pipeline.Value

noncomputable section

open scoped BigOperators

namespace Cert.Colbert

open Cert.KernelIdeal Cert.KernelIdeal.Gen Idealize.ShloMosaic Idealize.ShloMosaic.TcCoe Idealize.SL.Sem
open Idealize.ShloMosaic.ValueIdx
open Idealize.ShloMosaic.Pipeline (Dat)

/-- The partial score of block n: the sum of the scores of batch entries 8n … 8n+7. -/
def partialScore (Q : S256x256x128.Idx → EReal) (P : S256x512x128.Idx → EReal) (n : Fin 32) : EReal :=
  ∑ j : Fin 8, rowScore Q P (⟨8 * n.val + j.val, by have := n.isLt; have := j.isLt; omega⟩ : Fin 256)

/-- What an output array ends holding: at row r, in every column, the partial score of block r / 8. -/
def tiles (Q : S256x256x128.Idx → EReal) (P : S256x512x128.Idx → EReal) : S256x128.Idx → EReal :=
  fun i => partialScore Q P ⟨(i 0).val / 8, by have h : (i 0).val < 256 := (i 0).isLt; omega⟩

/-- A tile computed from blocks that are rows 8n … 8n+7 of Q and P is block n's partial score, at every entry. -/
theorem tile_of_block (Q : S256x256x128.Idx → EReal) (P : S256x512x128.Idx → EReal)
    (x0 : Vec Ideal S8x256x128 .f32) (x1 : Vec Ideal S8x512x128 .f32) (n : Fin 32)
    (h0 : ∀ (b : Fin 8) (q : Fin 256) (d : Fin 128),
      x0 (ix3 b q d) = Q (ix3 (⟨8 * n.val + b.val, by have := n.isLt; have := b.isLt; omega⟩ : Fin 256) q d))
    (h1 : ∀ (b : Fin 8) (k : Fin 512) (d : Fin 128),
      x1 (ix3 b k d) = P (ix3 (⟨8 * n.val + b.val, by have := n.isLt; have := b.isLt; omega⟩ : Fin 256) k d))
    (y : S8x128.Idx) : k0_pay2 (F := Ideal) x0 x1 y = partialScore Q P n := by
  obtain ⟨r, l, rfl⟩ : ∃ (r : Fin 8) (l : Fin 128), y = ix2 r l := ⟨y 0, y 1, eq_ix2 y⟩
  refine (tile_apply x0 x1 r l).trans ?_
  unfold partialScore rowScore best sim
  exact Finset.sum_congr rfl fun b _ => Finset.sum_congr rfl fun q _ =>
    congrArg (fun f => Finset.fold max negInf f (Finset.univ : Finset (Fin 512)))
      (funext fun k => Finset.sum_congr rfl fun d _ => by rw [h0 b q d, h1 b k d])

variable (m : (ℓ : Loc nD τ sig) → Buf (Elt Ideal) ℓ)

theorem zero2 : (![0, 0] : Fin 2 → Nat) = fun _ => 0 := funext fun a => by fin_cases a <;> rfl
theorem zero3 : (![0, 0, 0] : Fin 3 → Nat) = fun _ => 0 := funext fun a => by fin_cases a <;> rfl

/-- The printed index maps, decided over the grid: at step t every window's block index is t on the batch (row) axis and
    0 on the others. -/
theorem steps : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The query block of step t is rows 8t … 8t+7 of the queries. -/
theorem queries_block (c : Dev nD) (t : Fin cfg0.N) (b : Fin 8) (q : Fin 256) (d : Fin 128) :
    iblk m c 0 t (ix3 b q d)
      = V m c main_arg0 (ix3 (⟨8 * (Fin.cast N_0 t).val + b.val, by have := (Fin.cast N_0 t).isLt; have := b.isLt; omega⟩ : Fin 256) q d) := by
  obtain ⟨e0, e1, e2, -⟩ := steps t
  show V m c main_arg0 (((cfg0.win 0).blk t).view.emb (ix3 b q d)) = _
  refine congrArg (V m c main_arg0) (funext fun a => Fin.ext ?_)
  match a with
  | ⟨0, _⟩ => show win0_0.index t (0 : Fin 3) * 8 + 1 * b.val = 8 * t.val + b.val; omega
  | ⟨1, _⟩ => show win0_0.index t (1 : Fin 3) * 256 + 1 * q.val = q.val; omega
  | ⟨2, _⟩ => show win0_0.index t (2 : Fin 3) * 128 + 1 * d.val = d.val; omega

/-- The first document block of step t is rows 8t … 8t+7 of the first document array. -/
theorem positives_block (c : Dev nD) (t : Fin cfg0.N) (b : Fin 8) (k : Fin 512) (d : Fin 128) :
    iblk m c 1 t (ix3 b k d)
      = V m c main_arg1 (ix3 (⟨8 * (Fin.cast N_0 t).val + b.val, by have := (Fin.cast N_0 t).isLt; have := b.isLt; omega⟩ : Fin 256) k d) := by
  obtain ⟨-, -, -, e0, e1, e2, -⟩ := steps t
  show V m c main_arg1 (((cfg0.win 1).blk t).view.emb (ix3 b k d)) = _
  refine congrArg (V m c main_arg1) (funext fun a => Fin.ext ?_)
  match a with
  | ⟨0, _⟩ => show win0_1.index t (0 : Fin 3) * 8 + 1 * b.val = 8 * t.val + b.val; omega
  | ⟨1, _⟩ => show win0_1.index t (1 : Fin 3) * 512 + 1 * k.val = k.val; omega
  | ⟨2, _⟩ => show win0_1.index t (2 : Fin 3) * 128 + 1 * d.val = d.val; omega

/-- The second document block of step t is rows 8t … 8t+7 of the second document array. -/
theorem negatives_block (c : Dev nD) (t : Fin cfg0.N) (b : Fin 8) (k : Fin 512) (d : Fin 128) :
    iblk m c 2 t (ix3 b k d)
      = V m c main_arg2 (ix3 (⟨8 * (Fin.cast N_0 t).val + b.val, by have := (Fin.cast N_0 t).isLt; have := b.isLt; omega⟩ : Fin 256) k d) := by
  obtain ⟨-, -, -, -, -, -, e0, e1, e2, -⟩ := steps t
  show V m c main_arg2 (((cfg0.win 2).blk t).view.emb (ix3 b k d)) = _
  refine congrArg (V m c main_arg2) (funext fun a => Fin.ext ?_)
  match a with
  | ⟨0, _⟩ => show win0_2.index t (0 : Fin 3) * 8 + 1 * b.val = 8 * t.val + b.val; omega
  | ⟨1, _⟩ => show win0_2.index t (1 : Fin 3) * 512 + 1 * k.val = k.val; omega
  | ⟨2, _⟩ => show win0_2.index t (2 : Fin 3) * 128 + 1 * d.val = d.val; omega

/-! ## Output window 3: the first tiles -/

/-- What grid step `t` writes back through output window 3 is its block of `tiles` of the queries and the
    first documents as the region finds them. -/
theorem flushed3_eq (c : Dev nD) (t : Fin cfg0.N) :
    (dats m 0 c).flushed 3 t
      = ((cfg0.win 3).blk t).view.read (Elt Ideal) (tiles (V m c main_arg0) (V m c main_arg1)) := by
  show (cfg0.win 3).cut (grid0.coords t) ((dats m 0 c).after 3 t) = _
  rw [after0_3]
  unfold out0_3
  rw [View.canon_unit_zero zero2]
  simp only [View.ld_unit_zero (S := S8x256x128) zero3, View.ld_unit_zero (S := S8x512x128) zero3]
  funext j
  have e0 := (steps t).2.2.2.2.2.2.2.2.2.1
  show k0_pay2 (F := Ideal) (iblk m c 0 t) (iblk m c 1 t) j
    = tiles (V m c main_arg0) (V m c main_arg1) (((cfg0.win 3).blk t).view.emb j)
  refine (tile_of_block (V m c main_arg0) (V m c main_arg1) (iblk m c 0 t) (iblk m c 1 t) (Fin.cast N_0 t)
    (queries_block m c t) (positives_block m c t) j).trans ?_
  unfold tiles
  refine congrArg (partialScore _ _) (Fin.ext ?_)
  show t.val = (win0_3.index t (0 : Fin 2) * 8 + 1 * (j 0).val) / 8
  have hj : (j 0).val < 8 := (j 0).isLt
  omega

/-- An index of the array is in step `t`'s block iff each coordinate is in the block's range on its axis. -/
theorem mem_blk3 (t : Fin cfg0.N) (i : S256x128.Idx) :
    i ∈ ((cfg0.win 3).blk t).view.set ↔ ∀ a : Fin 2, win0_3.index t a * S8x128.size a ≤ (i a).val ∧ (i a).val < win0_3.index t a * S8x128.size a + S8x128.size a := by
  show i ∈ ((View.whole main_v0_0).slice (win0_3.rect t)).set ↔ _
  rw [View.set_slice_whole, Rect.mem_set_unit]
  exact Iff.rfl

/-- Row `r` of the array lies in the block of step `r / 8`. -/
theorem cover3 (i : S256x128.Idx) :
    ∃ t : Fin cfg0.N, (cfg0.win 3).flush t = true ∧ i ∈ ((cfg0.win 3).blk t).view.set := by
  have hi0 : (i 0).val < 256 := (i 0).isLt
  have hi1 : (i 1).val < 128 := (i 1).isLt
  have ht : ∃ t : Fin cfg0.N, t.val = (i 0).val / 8 := ⟨Fin.cast N_0.symm ⟨(i 0).val / 8, by omega⟩, rfl⟩
  obtain ⟨t, ht⟩ := ht
  have e0 := (steps t).2.2.2.2.2.2.2.2.2.1
  have e1 := (steps t).2.2.2.2.2.2.2.2.2.2.1
  refine ⟨t, flush0_3 t, ?_⟩
  rw [mem_blk3]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 128 ≤ (i 1).val ∧ (i 1).val < win0_3.index t (1 : Fin 2) * 128 + 128; omega

/-- After the run the array of output window 3 holds `tiles` of the queries and the first documents. -/
theorem final3 (c : Dev nD) :
    (dats m 0 c).arrAt 3 cfg0.N = tiles (V m c main_arg0) (V m c main_arg1) :=
  (dats m 0 c).arrAt_eq_of_cover 3 _ (fun t _ => flushed3_eq m c t) cover3

/-! ## Output window 4: the second tiles -/

/-- What grid step `t` writes back through output window 4 is its block of `tiles` of the queries and the
    second documents as the region finds them. -/
theorem flushed4_eq (c : Dev nD) (t : Fin cfg0.N) :
    (dats m 0 c).flushed 4 t
      = ((cfg0.win 4).blk t).view.read (Elt Ideal) (tiles (V m c main_arg0) (V m c main_arg2)) := by
  show (cfg0.win 4).cut (grid0.coords t) ((dats m 0 c).after 4 t) = _
  rw [after0_4]
  unfold out0_4
  rw [View.canon_unit_zero zero2]
  simp only [View.ld_unit_zero (S := S8x256x128) zero3, View.ld_unit_zero (S := S8x512x128) zero3]
  funext j
  have e0 := (steps t).2.2.2.2.2.2.2.2.2.2.2.1
  show k0_pay3 (F := Ideal) (iblk m c 0 t) (iblk m c 2 t) j
    = tiles (V m c main_arg0) (V m c main_arg2) (((cfg0.win 4).blk t).view.emb j)
  refine (tile_of_block (V m c main_arg0) (V m c main_arg2) (iblk m c 0 t) (iblk m c 2 t) (Fin.cast N_0 t)
    (queries_block m c t) (negatives_block m c t) j).trans ?_
  unfold tiles
  refine congrArg (partialScore _ _) (Fin.ext ?_)
  show t.val = (win0_4.index t (0 : Fin 2) * 8 + 1 * (j 0).val) / 8
  have hj : (j 0).val < 8 := (j 0).isLt
  omega

/-- An index of the array is in step `t`'s block iff each coordinate is in the block's range on its axis. -/
theorem mem_blk4 (t : Fin cfg0.N) (i : S256x128.Idx) :
    i ∈ ((cfg0.win 4).blk t).view.set ↔ ∀ a : Fin 2, win0_4.index t a * S8x128.size a ≤ (i a).val ∧ (i a).val < win0_4.index t a * S8x128.size a + S8x128.size a := by
  show i ∈ ((View.whole main_v0_1).slice (win0_4.rect t)).set ↔ _
  rw [View.set_slice_whole, Rect.mem_set_unit]
  exact Iff.rfl

/-- Row `r` of the array lies in the block of step `r / 8`. -/
theorem cover4 (i : S256x128.Idx) :
    ∃ t : Fin cfg0.N, (cfg0.win 4).flush t = true ∧ i ∈ ((cfg0.win 4).blk t).view.set := by
  have hi0 : (i 0).val < 256 := (i 0).isLt
  have hi1 : (i 1).val < 128 := (i 1).isLt
  have ht : ∃ t : Fin cfg0.N, t.val = (i 0).val / 8 := ⟨Fin.cast N_0.symm ⟨(i 0).val / 8, by omega⟩, rfl⟩
  obtain ⟨t, ht⟩ := ht
  have e0 := (steps t).2.2.2.2.2.2.2.2.2.2.2.1
  have e1 := (steps t).2.2.2.2.2.2.2.2.2.2.2.2
  refine ⟨t, flush0_4 t, ?_⟩
  rw [mem_blk4]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 128 ≤ (i 1).val ∧ (i 1).val < win0_4.index t (1 : Fin 2) * 128 + 128; omega

/-- After the run the array of output window 4 holds `tiles` of the queries and the second documents. -/
theorem final4 (c : Dev nD) :
    (dats m 0 c).arrAt 4 cfg0.N = tiles (V m c main_arg0) (V m c main_arg2) :=
  (dats m 0 c).arrAt_eq_of_cover 4 _ (fun t _ => flushed4_eq m c t) cover4

end Cert.Colbert

end
-- ==== Proof.LibBlockSums.lean ====
import Mathlib

/-! # Sums over a range cut into equal blocks, and running sums

Two regroupings of a finite sum in a commutative additive monoid (the extended reals among them: no
finiteness is asked):

* `sum_blocks`: a sum over `a · b` consecutive positions is the sum, over the `a` blocks of `b` consecutive
  positions, of each block's sum: `∑ n < a, ∑ q < b, f (b · n + q) = ∑ j < a · b, f j`. The literal forms
  `8 · 512 = 4096` and `4 · 1024 = 4096` state it over `Fin 4096`.
* `foldl_add_eq_sum` / `runningSum_eq_sum`: an accumulator that starts at `0` and adds `g n` at step `n`
  holds, after all `N` steps, `∑ n < N, g n`. -/

open scoped BigOperators

namespace Cert.BlockSums

variable {M : Type*} [AddCommMonoid M]

/-- Position `b · n + q` of block `n`, offset `q`, lies below `a · b`. -/
theorem block_pos_lt {a b : ℕ} (n : Fin a) (q : Fin b) : b * n.val + q.val < a * b := by
  have hn := n.isLt
  have hq := q.isLt
  calc b * n.val + q.val < b * n.val + b := by omega
    _ = b * (n.val + 1) := by ring
    _ ≤ b * a := Nat.mul_le_mul_left b hn
    _ = a * b := Nat.mul_comm b a

/-- A sum over `a · b` positions, block by block. -/
theorem sum_blocks (a b : ℕ) (f : ℕ → M) :
    ∑ n : Fin a, ∑ q : Fin b, f (b * n.val + q.val) = ∑ j : Fin (a * b), f j.val := by
  rw [← Fintype.sum_prod_type', ← Equiv.sum_comp (finProdFinEquiv (m := a) (n := b))]
  refine Finset.sum_congr rfl fun p _ => ?_
  show f (b * p.1.val + p.2.val) = f (p.2.val + b * p.1.val)
  rw [Nat.add_comm]

/-- The same over `Fin N` with `N = a · b`, for a function of the position as an element of `Fin N`. -/
theorem sum_blocks_fin {N : ℕ} (a b : ℕ) (h : a * b = N) (f : Fin N → M) :
    ∑ n : Fin a, ∑ q : Fin b, f ⟨b * n.val + q.val, h ▸ block_pos_lt n q⟩ = ∑ j : Fin N, f j := by
  subst h
  have key := sum_blocks a b (fun j => if hj : j < a * b then f ⟨j, hj⟩ else 0)
  simp only [block_pos_lt, dif_pos, Fin.is_lt, Fin.eta] at key
  exact key

/-- Eight blocks of 512 positions make up 4096 positions. -/
theorem sum_blocks_8_512 (f : Fin 4096 → M) :
    ∑ n : Fin 8, ∑ q : Fin 512, f ⟨512 * n.val + q.val, by have := n.isLt; have := q.isLt; omega⟩
      = ∑ j : Fin 4096, f j :=
  sum_blocks_fin 8 512 rfl f

/-- Four blocks of 1024 positions make up 4096 positions. -/
theorem sum_blocks_4_1024 (f : Fin 4096 → M) :
    ∑ n : Fin 4, ∑ q : Fin 1024, f ⟨1024 * n.val + q.val, by have := n.isLt; have := q.isLt; omega⟩
      = ∑ j : Fin 4096, f j :=
  sum_blocks_fin 4 1024 rfl f

/-- A left fold that adds `g n` at step `n`, from `init`, over the first `N` steps, is `init` plus the sum. -/
theorem foldl_add_eq_sum (g : ℕ → M) (init : M) (N : ℕ) :
    (List.range N).foldl (fun acc n => acc + g n) init = init + ∑ n ∈ Finset.range N, g n := by
  induction N with
  | zero => simp
  | succ N ih =>
    rw [List.range_succ, List.foldl_append, ih, Finset.sum_range_succ]
    show init + ∑ n ∈ Finset.range N, g n + g N = _
    rw [add_assoc]

/-- The running sum: `acc 0 = 0`, `acc (n + 1) = acc n + g n`. -/
def runningSum (g : ℕ → M) : ℕ → M
  | 0 => 0
  | n + 1 => runningSum g n + g n

/-- After `N` steps the running sum is `∑ n < N, g n`. -/
theorem runningSum_eq_sum (g : ℕ → M) (N : ℕ) : runningSum g N = ∑ n ∈ Finset.range N, g n := by
  induction N with
  | zero => rfl
  | succ N ih => rw [runningSum, ih, Finset.sum_range_succ]

/-- Any accumulator sequence that starts at `0` and adds `g n` at step `n` is, after `N` steps, the sum over
    `Fin N` of `g`. -/
theorem acc_eq_sum_fin (g : ℕ → M) (acc : ℕ → M) (h0 : acc 0 = 0) (hs : ∀ n, acc (n + 1) = acc n + g n) (N : ℕ) :
    acc N = ∑ n : Fin N, g n.val := by
  rw [Fin.sum_univ_eq_sum_range (fun n => g n) N]
  induction N with
  | zero => simpa using h0
  | succ N ih => rw [hs, ih, Finset.sum_range_succ]

end Cert.BlockSums
-- ==== Proof.KernelResult.lean ====
/-
  What the kernel's program computes after its grid has run.

  The host views each [256, 128] output as 32 tiles of [8, 128], takes entry (0, 0) of every tile — row 8n, column 0 of
  the output — and sums the 32 numbers from zero.  Each is the partial score of block n, so the sum is zero plus the sum
  over the 32 blocks of the sums over their 8 batch entries: zero plus the score of the whole batch.  The loss is the
  hinge of the two scores.
-/
import proofs.«163688_j52664888983644_2_alg».proof.Proof.Gen.KernelIdeal.Frame
import proofs.«163688_j52664888983644_2_alg».proof.Proof.PartialSums
import proofs.«163688_j52664888983644_2_alg».proof.Proof.LibBlockSums
import Idealize.ShloMosaic.Lib.StableHlo.Run
import Idealize.ShloMosaic.Lib.Pipeline.Value

noncomputable section

open scoped BigOperators

namespace Cert.Colbert

open Cert.KernelIdeal Cert.KernelIdeal.Gen Idealize.ShloMosaic Idealize.ShloMosaic.TcCoe Idealize.SL.Sem
open Idealize.ShloMosaic.StableHlo Idealize.ShloMosaic.ValueIdx

/-- A rank-1 index set is its coordinate range, so a sum over it is the sum over the coordinate. -/
def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's reading of an output array: entry (0, 0) of each of the 32 tiles, summed from zero. -/
def gathered (T : S256x128.Idx → EReal) : FVec Ideal S_ .f32 :=
  Host.reduceAdd (F := Ideal)
    (shapeCast S32 (extractStridedSlice S32x1x1 ![0, 0, 0] (shapeCast S32x8x128 T shapeCasts_S256x128_S32x8x128)
      slices_S32x8x128_S32x1x1_0_0_0) shapeCasts_S32x1x1_S32)
    (constant (F := Ideal) S_ .f32 0x00000000#32) reducesTo_S32_S_d0 h_S_

/-- Entry n of the vector the host sums is row 8n, column 0 of the output array. -/
theorem corner_apply (T : S256x128.Idx → EReal) (n : Fin 32) :
    shapeCast S32 (extractStridedSlice S32x1x1 ![0, 0, 0] (shapeCast S32x8x128 T shapeCasts_S256x128_S32x8x128)
      slices_S32x8x128_S32x1x1_0_0_0) shapeCasts_S32x1x1_S32 (ix1 n)
      = T (ix2 (⟨8 * n.val, by have := n.isLt; omega⟩ : Fin 256) (0 : Fin 128)) := by
  refine (shapeCast_apply _ _ (ix1 n) (ix3 n (0 : Fin 1) (0 : Fin 1)) ?_).trans ?_
  · rw [Shape.rowMajor_val_one, Shape.rowMajor_val_three]
    show (n.val * 1 + 0) * 1 + 0 = n.val
    omega
  refine (extractStridedSlice_apply _ _ _ (ix3 n (0 : Fin 1) (0 : Fin 1)) (ix3 n (0 : Fin 8) (0 : Fin 128)) ?_).trans ?_
  · intro a
    match a with
    | ⟨0, _⟩ => show n.val = 0 + n.val; omega
    | ⟨1, _⟩ => rfl
    | ⟨2, _⟩ => rfl
  refine shapeCast_apply _ _ (ix3 n (0 : Fin 8) (0 : Fin 128)) (ix2 (⟨8 * n.val, by have := n.isLt; omega⟩ : Fin 256) (0 : Fin 128)) ?_
  rw [Shape.rowMajor_val_two, Shape.rowMajor_val_three]
  show 8 * n.val * 128 + 0 = (n.val * 8 + 0) * 128 + 0
  omega

/-- The host's sum from zero over the 32 tile corners. -/
theorem gathered_apply (T : S256x128.Idx → EReal) (i : S_.Idx) :
    gathered T i = Ideal.ofBits .f32 0x00000000#32
      + ∑ n : Fin 32, T (ix2 (⟨8 * n.val, by have := n.isLt; omega⟩ : Fin 256) (0 : Fin 128)) := by
  unfold gathered
  simp only [Host.reduceAdd, Ideal.hostReduceAdd_def]
  refine (Ideal.hostReduceAdd_total reducesTo_S32_S_d0 (fun b => b.elim0) _ _ i).trans ?_
  rw [sum_idx1]
  exact congrArg (Ideal.ofBits .f32 0x00000000#32 + ·) (Finset.sum_congr rfl fun n _ => corner_apply T n)

/-- The sum of the 32 partial scores is the score: 32 blocks of 8 batch entries make up the 256. -/
theorem sum_partialScore (Q : S256x256x128.Idx → EReal) (P : S256x512x128.Idx → EReal) :
    ∑ n : Fin 32, partialScore Q P n = score Q P := by
  unfold partialScore score
  exact Cert.BlockSums.sum_blocks_fin 32 8 rfl (fun b : Fin 256 => rowScore Q P b)

/-- The host's reading of an array of tiles is zero plus the score. -/
theorem gathered_tiles (Q : S256x256x128.Idx → EReal) (P : S256x512x128.Idx → EReal) :
    gathered (tiles Q P) = scoreArr Q P := by
  funext i
  rw [gathered_apply]
  unfold scoreArr
  refine congrArg (Ideal.ofBits .f32 0x00000000#32 + ·) ?_
  rw [← sum_partialScore]
  refine Finset.sum_congr rfl fun n _ => ?_
  unfold tiles
  refine congrArg (partialScore Q P) (Fin.ext ?_)
  show 8 * n.val / 8 = n.val
  omega

variable (m : (ℓ : Loc nD τ sig) → Buf (Elt Ideal) ℓ)

/-- After the grid the two output arrays hold the tiles (what the region leaves, read at an array). -/
theorem left_pos (c : Dev nD) :
    Pipeline.withArrays (cfgs 0).spec c (V0 m c) (fun w => (dats m 0 c).arrAt w (cfgs 0).N) (Proc.devRef .tc main_v0_0)
      = tiles (V m c main_arg0) (V m c main_arg1) :=
  (Pipeline.withArrays_arr spec0 launch0.win.arr_inj c _ _ 3).trans (final3 m c)

theorem left_neg (c : Dev nD) :
    Pipeline.withArrays (cfgs 0).spec c (V0 m c) (fun w => (dats m 0 c).arrAt w (cfgs 0).N) (Proc.devRef .tc main_v0_1)
      = tiles (V m c main_arg0) (V m c main_arg2) :=
  (Pipeline.withArrays_arr spec0 launch0.win.arr_inj c _ _ 4).trans (final4 m c)

/-- The result buffer after the host lines that follow the grid: the hinge of the host's readings of the two arrays. -/
theorem tail_eq (c : Dev nD) :
    Pipeline.afterTail₀ cfgs (dats m) 0 (V0 m) [hostOps1, hostOps1_1] c main_v11
      = hinge
          (gathered (Pipeline.withArrays (cfgs 0).spec c (V0 m c) (fun w => (dats m 0 c).arrAt w (cfgs 0).N) (Proc.devRef .tc main_v0_0)))
          (gathered (Pipeline.withArrays (cfgs 0).spec c (V0 m c) (fun w => (dats m 0 c).arrAt w (cfgs 0).N) (Proc.devRef .tc main_v0_1))) := by
  unfold Pipeline.afterTail₀
  simp only [hostOps1, hostOps1_1, List.flatten_cons, List.flatten_nil, List.append_nil, List.cons_append, List.nil_append]
  after_results
  rfl

/-- The kernel program's result: the hinge of the two scores of the argument arrays. -/
theorem result (c : Dev nD) :
    Pipeline.afterTail₀ cfgs (dats m) 0 (V0 m) [hostOps1, hostOps1_1] c main_v11
      = hinge (scoreArr (m ((c.tc : Thread nD τ).loc main_arg0)) (m ((c.tc : Thread nD τ).loc main_arg1)))
          (scoreArr (m ((c.tc : Thread nD τ).loc main_arg0)) (m ((c.tc : Thread nD τ).loc main_arg2))) := by
  rw [tail_eq, left_pos, left_neg, gathered_tiles, gathered_tiles, V_main_arg0, V_main_arg1, V_main_arg2]

/-- The kernel program's run, read: every weakly fair execution terminates with the result buffer at the hinge of the
    two scores of the argument arrays, and the argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v11)
        = hinge (scoreArr (m ((c.tc : Thread nD τ).loc main_arg0)) (m ((c.tc : Thread nD τ).loc main_arg1)))
            (scoreArr (m ((c.tc : Thread nD τ).loc main_arg0)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).2 main_v11 (Pipeline.mem_restRefs_of main_v11 rfl (by decide))).trans (result m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.Colbert

end
-- ==== Proof.ReferenceResult.lean ====
/-
  What the reference computes, as a function of its arguments on the extended reals.

  For each document array the reference forms all similarities with one batched product (contracting the 128 features),
  takes the maximum over the 512 document tokens from minus infinity, and sums the [256, 256] array of maxima from zero
  over both axes: zero plus the score.  The loss is the hinge of the two scores.
-/
import proofs.«163688_j52664888983644_2_alg».proof.Proof.Gen.ReferenceIdeal.Read
import proofs.«163688_j52664888983644_2_alg».proof.Proof.Score
import proofs.«163688_j52664888983644_2_alg».proof.Proof.LibLastAxis3
import proofs.«163688_j52664888983644_2_alg».proof.Proof.LibBatchedScores3

noncomputable section

open scoped BigOperators

namespace Cert.Colbert.Reference

open Cert.Colbert Cert.ReferenceIdeal Cert.ReferenceIdeal.Gen Cert.ReferenceIdeal.Read
open Idealize.ShloMosaic Idealize.ShloMosaic.ValueIdx

/-- The reference's row maxima for the first document array are `best`. -/
theorem best_pos (x0 : (⟨S256x256x128, .f32⟩ : BufTy).Contents (Elt Ideal)) (x1 : (⟨S256x512x128, .f32⟩ : BufTy).Contents (Elt Ideal))
    (b q : Fin 256) : val_main_v1 (F := Ideal) x0 x1 (ix2 b q) = best x0 x1 b q := by
  unfold val_main_v1 val_main_v0 best sim
  refine (Cert.Lib.LastAxis3.hostMax_last3 _ _ _ (by decide) _ b q).trans ?_
  exact congrArg (fun f => Finset.fold max negInf f (Finset.univ : Finset (Fin 512)))
    (funext fun k => Cert.Lib.BatchedScores3.hostDot_scores3 _ rfl rfl rfl rfl rfl rfl _ _ _ b q k)

/-- The reference's row maxima for the second document array are `best`. -/
theorem best_neg (x0 : (⟨S256x256x128, .f32⟩ : BufTy).Contents (Elt Ideal)) (x2 : (⟨S256x512x128, .f32⟩ : BufTy).Contents (Elt Ideal))
    (b q : Fin 256) : val_main_v4 (F := Ideal) x0 x2 (ix2 b q) = best x0 x2 b q := by
  unfold val_main_v4 val_main_v3 best sim
  refine (Cert.Lib.LastAxis3.hostMax_last3 _ _ _ (by decide) _ b q).trans ?_
  exact congrArg (fun f => Finset.fold max negInf f (Finset.univ : Finset (Fin 512)))
    (funext fun k => Cert.Lib.BatchedScores3.hostDot_scores3 _ rfl rfl rfl rfl rfl rfl _ _ _ b q k)

/-- The reference's positive score: zero plus the score of the queries against the first document array. -/
theorem score_pos (x0 : (⟨S256x256x128, .f32⟩ : BufTy).Contents (Elt Ideal)) (x1 : (⟨S256x512x128, .f32⟩ : BufTy).Contents (Elt Ideal)) :
    val_main_v2 (F := Ideal) x0 x1 = scoreArr x0 x1 := by
  funext i
  rw [val_main_v2_apply, sum_idx2]
  unfold scoreArr score rowScore
  exact congrArg (Ideal.ofBits .f32 0x00000000#32 + ·)
    (Finset.sum_congr rfl fun b _ => Finset.sum_congr rfl fun q _ => best_pos x0 x1 b q)

/-- The reference's negative score: zero plus the score of the queries against the second document array. -/
theorem score_neg (x0 : (⟨S256x256x128, .f32⟩ : BufTy).Contents (Elt Ideal)) (x2 : (⟨S256x512x128, .f32⟩ : BufTy).Contents (Elt Ideal)) :
    val_main_v5 (F := Ideal) x0 x2 = scoreArr x0 x2 := by
  funext i
  rw [val_main_v5_apply, sum_idx2]
  unfold scoreArr score rowScore
  exact congrArg (Ideal.ofBits .f32 0x00000000#32 + ·)
    (Finset.sum_congr rfl fun b _ => Finset.sum_congr rfl fun q _ => best_neg x0 x2 b q)

/-- The reference's result is the hinge of the two scores. -/
theorem result (x0 : (⟨S256x256x128, .f32⟩ : BufTy).Contents (Elt Ideal)) (x1 x2 : (⟨S256x512x128, .f32⟩ : BufTy).Contents (Elt Ideal)) :
    val_main_v8 (F := Ideal) x0 x1 x2 = hinge (scoreArr x0 x1) (scoreArr x0 x2) := by
  unfold val_main_v8 val_main_v7 val_main_v6
  rw [score_pos, score_neg]
  rfl

end Cert.Colbert.Reference

end
-- ==== Proof.lean ====
/-
  The kernel and the reference compute one function of the queries q and the two document arrays p, n:

      loss = max (margin + score q n - score q p) 0,
      score q d = ∑ over batch entries b and query tokens i of  max over document tokens k of  ⟨q[b,i,:], d[b,k,:]⟩.

  The kernel's grid takes the batch 8 entries at a step: each step forms the similarities of its 8 entries with one
  batched product, takes the row maxima, sums them over the query tokens and the 8 entries, and fills a tile with that
  partial score; the host then adds up one entry per tile.  The reference forms all similarities at once and sums all
  the maxima.  On the extended reals addition is commutative and associative at every value, the infinities included, so
  the sum over 32 blocks of 8 batch entries is the sum over the 256 entries (no finiteness is used); the changes of
  float format on the way into the kernel's products are the identity there, and a product into a zero accumulator is
  the plain contraction the host's product is.  Both programs end with the same three host operations on the two
  scores, carried as one function (`hinge`).

  The frames of the two kernel programs and the run of the reference are the generated modules'; the idealized kernel is
  the kernel's own text read on the extended reals, so there is nothing to preserve.
-/
import proofs.«163688_j52664888983644_2_alg».proof.Defs
import proofs.«163688_j52664888983644_2_alg».proof.Proof.Gen.Kernel
import proofs.«163688_j52664888983644_2_alg».proof.Proof.Gen.Kernel.Skeleton
import proofs.«163688_j52664888983644_2_alg».proof.Proof.Gen.Kernel.Launch
import proofs.«163688_j52664888983644_2_alg».proof.Proof.Gen.Kernel.Points
import proofs.«163688_j52664888983644_2_alg».proof.Proof.Gen.Kernel.Frame
import proofs.«163688_j52664888983644_2_alg».proof.Proof.Gen.KernelIdeal
import proofs.«163688_j52664888983644_2_alg».proof.Proof.Gen.KernelIdeal.Skeleton
import proofs.«163688_j52664888983644_2_alg».proof.Proof.Gen.KernelIdeal.Launch
import proofs.«163688_j52664888983644_2_alg».proof.Proof.Gen.KernelIdeal.Points
import proofs.«163688_j52664888983644_2_alg».proof.Proof.Gen.KernelIdeal.Frame
import proofs.«163688_j52664888983644_2_alg».proof.Proof.Gen.ReferenceIdeal
import proofs.«163688_j52664888983644_2_alg».proof.Proof.Gen.ReferenceIdeal.Run
import proofs.«163688_j52664888983644_2_alg».proof.Proof.Gen.ReferenceIdeal.Read
import proofs.«163688_j52664888983644_2_alg».proof.Proof.Gen.Pre_finite_inputs
import proofs.«163688_j52664888983644_2_alg».proof.Proof.KernelResult
import proofs.«163688_j52664888983644_2_alg».proof.Proof.ReferenceResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read on the extended reals: no rewrite to account for. -/
theorem preserves : Cert.preserves_Kernel_KernelIdeal := trivial

/-- Both programs end with the hinge of the two scores of the argument arrays, which agree. -/
theorem algebraic : Cert.algebraic_KernelIdeal_ReferenceIdeal := by
  intro m ρ m' ρ' _ hagree
  refine ⟨_, Cert.Colbert.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Colbert.Reference.result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
